-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S10000x128 : Shape := ⟨2, ![10000, 128]⟩
abbrev S850000x128 : Shape := ⟨2, ![850000, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 130
  | .vmem => 17
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S1x128, .f32⟩
  | 48 => ⟨S1x128, .f32⟩
  | 49 => ⟨S50000x128, .bf16⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .bf16⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S50000x128, .bf16⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x128, .bf16⟩
  | 77 => ⟨S850000x128, .f32⟩
  | 78 => ⟨S850000x1, .f32⟩
  | 79 => ⟨S850000x128, .f32⟩
  | 80 => ⟨S850000x128, .f32⟩
  | 81 => ⟨S_, .f32⟩
  | 82 => ⟨S50000x128, .f32⟩
  | 83 => ⟨S850000x1, .i32⟩
  | 84 => ⟨S50000x128, .f32⟩
  | 85 => ⟨S50000x128, .bf16⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .bf16⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S64x128, .f32⟩
  | 111 => ⟨S50000x1, .i32⟩
  | 112 => ⟨S64x128, .f32⟩
  | 113 => ⟨S_, .f32⟩
  | 114 => ⟨S50000, .f32⟩
  | 115 => ⟨S_, .f32⟩
  | 116 => ⟨S64, .f32⟩
  | 117 => ⟨S50000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x128, .f32⟩
  | 124 => ⟨S64x128, .f32⟩
  | 125 => ⟨S64x1, .f32⟩
  | 126 => ⟨S1x1, .f32⟩
  | 127 => ⟨S64x1, .f32⟩
  | _ => ⟨S50000x128, .f32⟩

abbrev hbmTy0_1 (i : Nat) : BufTy := match i % 128 with
  | 0 => ⟨S64x1, .f32⟩
  | 1 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .bf16⟩
  | .local _ .vmem, ⟨16, _⟩ => ⟨S10000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call0_cst : Ref sig .tc := ⟨.hbm, 106, rfl⟩
abbrev main_call0_v0 : Ref sig .tc := ⟨.hbm, 107, rfl⟩
abbrev main_v79 : Ref sig .tc := ⟨.hbm, 108, rfl⟩
abbrev main_cst_14 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .bf16 = 32 ∨ (Rect.block (s := S50000x128) S10000x128.size (cc2_transform_3 i) (hinb2_3 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S50000x128, .f32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S_, .f32⟩
  | 72 => ⟨S850000, .f32⟩
  | 73 => ⟨S_, .f32⟩
  | 74 => ⟨S50000, .f32⟩
  | 75 => ⟨S850000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x128, .f32⟩
  | 109 => ⟨S850000x1, .f32⟩
  | 110 => ⟨S850000x128, .f32⟩
  | 111 => ⟨S850000x128, .f32⟩
  | 112 => ⟨S_, .f32⟩
  | 113 => ⟨S50000x128, .f32⟩
  | 114 => ⟨S850000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S_, .f32⟩
  | 124 => ⟨S850000, .f32⟩
  | 125 => ⟨S_, .f32⟩
  | 126 => ⟨S50000, .f32⟩
  | 127 => ⟨S850000x1, .i32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000, .f32⟩
  | 23 => ⟨S850000, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x128, .f32⟩
  | 33 => ⟨S850000x1, .f32⟩
  | 34 => ⟨S850000x128, .f32⟩
  | 35 => ⟨S850000x128, .f32⟩
  | 36 => ⟨S_, .f32⟩
  | 37 => ⟨S50000x128, .f32⟩
  | 38 => ⟨S850000x1, .i32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S64x128, .f32⟩
  | 48 => ⟨S50000x1, .i32⟩
  | 49 => ⟨S64x128, .f32⟩
  | 50 => ⟨S_, .f32⟩
  | 51 => ⟨S50000, .f32⟩
  | 52 => ⟨S_, .f32⟩
  | 53 => ⟨S64, .f32⟩
  | 54 => ⟨S50000x1, .i32⟩
  | 55 => ⟨S64, .f32⟩
  | 56 => ⟨S_, .f32⟩
  | 57 => ⟨S64, .f32⟩
  | 58 => ⟨S64, .f32⟩
  | 59 => ⟨S64x1, .f32⟩
  | 60 => ⟨S64x128, .f32⟩
  | 61 => ⟨S64x128, .f32⟩
  | 62 => ⟨S64x1, .f32⟩
  | 63 => ⟨S1x1, .f32⟩
  | 64 => ⟨S64x1, .f32⟩
  | 65 => ⟨S64x1, .f32⟩
  | 66 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call1_cst : Ref sig .tc := ⟨.hbm, 119, rfl⟩
abbrev main_call1_v0 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_21 : Ref sig .tc := ⟨.hbm, 133, rfl⟩
abbrev main_v95 : Ref sig .tc := ⟨.hbm, 134, rfl⟩
abbrev main_v96 : Ref sig .tc := ⟨.hbm, 135, rfl⟩
abbrev main_c_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_23 : Ref sig .tc := ⟨.hbm, 142, rfl⟩
abbrev main_v102 : Ref sig .tc := ⟨.hbm, 143, rfl⟩
abbrev main_v103 : Ref sig .tc := ⟨.hbm, 144, rfl⟩
abbrev main_c_24 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_25 : Ref sig .tc := ⟨.hbm, 152, rfl⟩
abbrev main_v110 : Ref sig .tc := ⟨.hbm, 153, rfl⟩
abbrev main_v111 : Ref sig .tc := ⟨.hbm, 154, rfl⟩
abbrev main_c_26 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_27 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_call2_cst : Ref sig .tc := ⟨.hbm, 171, rfl⟩
abbrev main_call2_v0 : Ref sig .tc := ⟨.hbm, 172, rfl⟩
abbrev main_v126 : Ref sig .tc := ⟨.hbm, 173, rfl⟩
abbrev main_cst_28 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_29 : Ref sig .tc := ⟨.hbm, 178, rfl⟩
abbrev main_v130 : Ref sig .tc := ⟨.hbm, 179, rfl⟩
abbrev main_cst_30 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_31 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel's run, with its result kept.

  Every weakly fair execution of the program terminates, and in the final state the result array holds what the
  last boundary's contents give it: the program is three kernel regions among stretches of host operations, the
  contents of every buffer at each boundary are a fold from the launch memory (a host stretch applies its operations,
  a region replaces its output array by what its grid points wrote back), and the final state is read against the last
  of them. The arguments end as launched.
-/
import proofs.«155065_j35270271435518_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run : θ_run defs (onTc (τ := τ) (main (F := F))) ⟨m, fun _ => 0, ρ⟩ (fun r => ∀ c : Dev nD,
      r.2.mem ((c.tc : Thread nD τ).loc main_v96) = W9 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v96 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.Result

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Layer.lean ====
/-
  One dense layer of the network, as a function of whole arrays over the extended reals.

  `proj x w` is the matrix product: entry (p, e) is the sum over k of x (p, k) · w (k, e).
  `projAct a b w` first adds the row vector b to every row of a, clips at 0 from below, then multiplies by w:
  entry (p, e) is the sum over k of max (a (p, k) + b (0, k)) 0 · w (k, e).
  Both are defined over any number of rows, so that a block of consecutive rows of the product is the product of
  that block of rows (`proj_rows`, `projAct_rows`): an entry of the result depends on ONE row of the left operand.
-/
import Idealize.ShloMosaic.Lib.ValueIdx
import Idealize.ShloMosaic.PureOps.Ideal.Laws

noncomputable section

namespace Cert.Layer

open Idealize.ShloMosaic Idealize.ShloMosaic.ValueIdx

/-- An m × n array of extended reals. -/
abbrev Mat (m n : ℕ) : Type := (⟨2, ![m, n]⟩ : Shape).Idx → EReal

/-- The matrix product x · w, entry by entry. -/
def proj {M : ℕ} (x : Mat M 128) (w : Mat 128 128) : Mat M 128 :=
  fun i => ∑ k : Fin 128, x (ix2 (n0 := M) (n1 := 128) (i 0) k) * w (ix2 (n0 := 128) (n1 := 128) k (i 1))

/-- max (a + b, 0) · w with b added to every row, entry by entry. -/
def projAct {M : ℕ} (a : Mat M 128) (b : Mat 1 128) (w : Mat 128 128) : Mat M 128 :=
  fun i => ∑ k : Fin 128,
    max (a (ix2 (n0 := M) (n1 := 128) (i 0) k) + b (ix2 (n0 := 1) (n1 := 128) 0 k)) 0
      * w (ix2 (n0 := 128) (n1 := 128) k (i 1))

theorem proj_apply {M : ℕ} (x : Mat M 128) (w : Mat 128 128) (p : Fin M) (e : Fin 128) :
    proj x w (ix2 p e) = ∑ k : Fin 128, x (ix2 p k) * w (ix2 k e) := rfl

theorem projAct_apply {M : ℕ} (a : Mat M 128) (b : Mat 1 128) (w : Mat 128 128) (p : Fin M) (e : Fin 128) :
    projAct a b w (ix2 p e) = ∑ k : Fin 128, max (a (ix2 p k) + b (ix2 0 k)) 0 * w (ix2 k e) := rfl

/-- Entry j of the product of a block of rows is entry i of the whole product, when row (j 0) of the block is row
    (i 0) of the whole left operand and the two entries sit in the same column. -/
theorem proj_rows {B M : ℕ} (x : Mat B 128) (X : Mat M 128) (w W : Mat 128 128)
    (j : (⟨2, ![B, 128]⟩ : Shape).Idx) (i : (⟨2, ![M, 128]⟩ : Shape).Idx)
    (hx : ∀ k : Fin 128, x (ix2 (n0 := B) (n1 := 128) (j 0) k) = X (ix2 (n0 := M) (n1 := 128) (i 0) k))
    (hw : ∀ k : Fin 128, w (ix2 (n0 := 128) (n1 := 128) k (j 1)) = W (ix2 (n0 := 128) (n1 := 128) k (i 1))) :
    proj x w j = proj X W i :=
  Finset.sum_congr rfl fun k _ => by rw [hx k, hw k]

/-- The same for the layer with the added row and the clip. -/
theorem projAct_rows {B M : ℕ} (a : Mat B 128) (A : Mat M 128) (b b' : Mat 1 128) (w W : Mat 128 128)
    (j : (⟨2, ![B, 128]⟩ : Shape).Idx) (i : (⟨2, ![M, 128]⟩ : Shape).Idx)
    (ha : ∀ k : Fin 128, a (ix2 (n0 := B) (n1 := 128) (j 0) k) = A (ix2 (n0 := M) (n1 := 128) (i 0) k))
    (hb : ∀ k : Fin 128, b (ix2 (n0 := 1) (n1 := 128) 0 k) = b' (ix2 (n0 := 1) (n1 := 128) 0 k))
    (hw : ∀ k : Fin 128, w (ix2 (n0 := 128) (n1 := 128) k (j 1)) = W (ix2 (n0 := 128) (n1 := 128) k (i 1))) :
    projAct a b w j = projAct A b' W i :=
  Finset.sum_congr rfl fun k _ => by rw [ha k, hb k, hw k]

end Cert.Layer

end
-- ==== Proof.Bodies.lean ====
/-
  What each of the three kernel bodies computes, as a function of its loaded blocks, over the extended reals.

  The first body multiplies a block of 10000 rows of its left operand by the whole 128 × 128 right operand. The other
  two first add a 1 × 128 row to every row of the block and clip at 0 from below, then multiply. The changes of float
  format in the bodies are the identity over the extended reals, and a product accumulated into the zero block is the
  plain sum over the contracted coordinate, so the three payloads are `Layer.proj` and `Layer.projAct` of the loaded
  blocks, entry by entry.
-/
import proofs.«155065_j35270271435518_2_alg».proof.Proof.Gen.KernelIdeal.Skeleton
import proofs.«155065_j35270271435518_2_alg».proof.Proof.LibPlainDot
import proofs.«155065_j35270271435518_2_alg».proof.Proof.Layer
import Idealize.ShloMosaic.Lib.Pipeline.Value

noncomputable section

namespace Cert.KernelIdeal.Bodies

open Cert.KernelIdeal Cert.KernelIdeal.Gen Idealize.ShloMosaic Idealize.ShloMosaic.ValueIdx Cert.Layer

/-! The product's dimension record reads its left operand at (output row, contracted coordinate) and its right
    operand at (contracted coordinate, output column). -/

theorem lhs0 (i : S10000x128.Idx) (q : (dot_S10000x128_S128x128_S10000x128_1_0_0_1_n_n).contr.Idx) :
    ((dot_S10000x128_S128x128_S10000x128_1_0_0_1_n_n).lhsIdx i q 0).val = (i 0).val := by
  unfold DotDims.lhsIdx
  rw [dif_neg (show ¬(0 : Fin S10000x128.rank) ∈ (dot_S10000x128_S128x128_S10000x128_1_0_0_1_n_n).lhsBatch by decide),
    dif_pos (show (0 : Fin S10000x128.rank) ∈ (dot_S10000x128_S128x128_S10000x128_1_0_0_1_n_n).lhsNonContracting by decide)]
  rfl
theorem lhs1 (i : S10000x128.Idx) (q : (dot_S10000x128_S128x128_S10000x128_1_0_0_1_n_n).contr.Idx) :
    ((dot_S10000x128_S128x128_S10000x128_1_0_0_1_n_n).lhsIdx i q 1).val = (q ⟨0, by decide⟩).val :=
  (dot_S10000x128_S128x128_S10000x128_1_0_0_1_n_n).lhsIdx_val_of_single rfl i q
theorem rhs0 (i : S10000x128.Idx) (q : (dot_S10000x128_S128x128_S10000x128_1_0_0_1_n_n).contr.Idx) :
    ((dot_S10000x128_S128x128_S10000x128_1_0_0_1_n_n).rhsIdx i q 0).val = (q ⟨0, by decide⟩).val :=
  (dot_S10000x128_S128x128_S10000x128_1_0_0_1_n_n).rhsIdx_val_of_single rfl i q
theorem rhs1 (i : S10000x128.Idx) (q : (dot_S10000x128_S128x128_S10000x128_1_0_0_1_n_n).contr.Idx) :
    ((dot_S10000x128_S128x128_S10000x128_1_0_0_1_n_n).rhsIdx i q 1).val = (i 1).val := by
  unfold DotDims.rhsIdx
  rw [dif_neg (show ¬(1 : Fin S128x128.rank) ∈ (dot_S10000x128_S128x128_S10000x128_1_0_0_1_n_n).rhsBatch by decide),
    dif_pos (show (1 : Fin S128x128.rank) ∈ (dot_S10000x128_S128x128_S10000x128_1_0_0_1_n_n).rhsNonContracting by decide)]
  rfl

/-- A block times the right operand, into the zero block, at (p, e): the sum over k of lhs (p, k) · rhs (k, e). -/
theorem dot_apply {φ₁ φ₂ : FTy} (lhs : FVec Ideal S10000x128 φ₁) (rhs : FVec Ideal S128x128 φ₂) (p : Fin 10000) (e : Fin 128) :
    matmul (dot_S10000x128_S128x128_S10000x128_1_0_0_1_n_n) none lhs rhs (constant (F := Ideal) S10000x128 .f32 0x00000000#32) (ix2 p e)
      = ∑ k : Fin 128, lhs (ix2 p k) * rhs (ix2 k e) :=
  Cert.LibPlainDot.matmul_zero_apply (M := 10000) (K := 128) (N := 128) (dot_S10000x128_S128x128_S10000x128_1_0_0_1_n_n) rfl rfl
    lhs0 lhs1 rhs0 rhs1 lhs rhs p e

/-- The first body's stored value is the product of its two loaded blocks. -/
theorem pay_plain (x0 : Vec Ideal S10000x128 .f32) (x1 : Vec Ideal S128x128 .f32) :
    (k0_pay1 (F := Ideal) x0 x1 : S10000x128.Idx → EReal) = proj (M := 10000) x0 x1 := by
  funext j
  obtain ⟨p, e, rfl⟩ : ∃ (p : Fin 10000) (e : Fin 128), j = ix2 p e := ⟨j 0, j 1, eq_ix2 j⟩
  unfold k0_pay1
  exact dot_apply (truncf .bf16 x0 bitsLt_bf16_f32) (truncf .bf16 x1 bitsLt_bf16_f32) p e

/-- The row vector added to every row of the block, read at (p, k), is its entry (0, k). -/
theorem row_apply (x1 : Vec Ideal S1x128 .f32) (p : Fin 10000) (k : Fin 128) :
    broadcastTo S10000x128 (shapeCast S1x128 x1 shapeCasts_S1x128_S1x128) broadcasts_S1x128_S10000x128 (ix2 p k)
      = x1 (ix2 (n0 := 1) (n1 := 128) 0 k) := by
  rw [shapeCast_self]
  refine broadcastTo_apply x1 _ (ix2 p k) (ix2 (n0 := 1) (n1 := 128) 0 k) fun a => ?_
  match a with
  | ⟨0, _⟩ => rfl
  | ⟨1, _⟩ => rfl

/-- The second body's stored value: the loaded row added to every row of the block, clipped at 0, times the weights. -/
theorem pay_fused1 (x0 : Vec Ideal S10000x128 .f32) (x1 : Vec Ideal S1x128 .f32) (x2 : Vec Ideal S128x128 .f32) :
    (k1_pay1 (F := Ideal) x0 x1 x2 : S10000x128.Idx → EReal) = projAct (M := 10000) x0 x1 x2 := by
  funext j
  obtain ⟨p, e, rfl⟩ : ∃ (p : Fin 10000) (e : Fin 128), j = ix2 p e := ⟨j 0, j 1, eq_ix2 j⟩
  unfold k1_pay1
  refine (dot_apply _ _ p e).trans ?_
  refine Finset.sum_congr rfl fun k _ => ?_
  refine congrArg (· * x2 (ix2 k e)) ?_
  show max (shapeCast S10000x128 x0 shapeCasts_S10000x128_S10000x128 (ix2 p k)
      + broadcastTo S10000x128 (shapeCast S1x128 x1 shapeCasts_S1x128_S1x128) broadcasts_S1x128_S10000x128 (ix2 p k))
      (Ideal.ofBits .f32 0x00000000#32) = max (x0 (ix2 p k) + x1 (ix2 (n0 := 1) (n1 := 128) 0 k)) 0
  rw [shapeCast_self, row_apply, Ideal.ofBits_zero_f32]

/-- The third body is the second body's text again. -/
theorem pay_fused2 (x0 : Vec Ideal S10000x128 .f32) (x1 : Vec Ideal S1x128 .f32) (x2 : Vec Ideal S128x128 .f32) :
    (k2_pay1 (F := Ideal) x0 x1 x2 : S10000x128.Idx → EReal) = projAct (M := 10000) x0 x1 x2 := by
  funext j
  obtain ⟨p, e, rfl⟩ : ∃ (p : Fin 10000) (e : Fin 128), j = ix2 p e := ⟨j 0, j 1, eq_ix2 j⟩
  unfold k2_pay1
  refine (dot_apply _ _ p e).trans ?_
  refine Finset.sum_congr rfl fun k _ => ?_
  refine congrArg (· * x2 (ix2 k e)) ?_
  show max (shapeCast S10000x128 x0 shapeCasts_S10000x128_S10000x128 (ix2 p k)
      + broadcastTo S10000x128 (shapeCast S1x128 x1 shapeCasts_S1x128_S1x128) broadcasts_S1x128_S10000x128 (ix2 p k))
      (Ideal.ofBits .f32 0x00000000#32) = max (x0 (ix2 p k) + x1 (ix2 (n0 := 1) (n1 := 128) 0 k)) 0
  rw [shapeCast_self, row_apply, Ideal.ofBits_zero_f32]

end Cert.KernelIdeal.Bodies

end
-- ==== Proof.Blocks.lean ====
/-
  From blocks to arrays: what each of the three kernel regions leaves in its output array.

  Each region runs its body at five grid points. Point t loads rows 10000·t … 10000·t + 9999 of the left operand
  (and the whole of the small operands) and writes back the same rows of the output. Since an entry of a layer's
  result depends on one row of the left operand only, what point t writes back is rows 10000·t … of the layer
  applied to the WHOLE arrays; the five blocks tile the 50000 rows, so the output array ends holding the layer of
  the arrays the region found at its entry.
-/
import proofs.«155065_j35270271435518_2_alg».proof.Proof.Gen.KernelIdeal.Frame
import proofs.«155065_j35270271435518_2_alg».proof.Proof.Bodies
import Idealize.ShloMosaic.Lib.Pipeline.Value

set_option maxRecDepth 16384

noncomputable section

namespace Cert.KernelIdeal.Blocks

open Cert.KernelIdeal Cert.KernelIdeal.Gen Cert.KernelIdeal.Bodies Cert.Layer
open Idealize.ShloMosaic Idealize.ShloMosaic.TcCoe Idealize.ShloMosaic.ValueIdx Idealize.SL.Sem
open Idealize.ShloMosaic.Pipeline (Dat)

-- the buffers' contents when a region is entered
variable (V : (c : Dev nD) → (b : Ref sig .tc) → Buf (Elt Ideal) ((c : Thread nD τ).loc b))

theorem hz : (![0, 0] : Fin 2 → Nat) = fun _ => 0 := funext fun a => by fin_cases a <;> rfl

/-! ## Region 0: the plain product -/

/-- The printed index maps over the grid: the left operand's block moves with the output's along the rows, every
    other block index is 0. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the five row blocks is some point's. -/
theorem onto0 : ∀ q : Fin 5, ∃ t : Fin cfg0.N, win0_2.index t = ![q.val, 0] :=
  (by decide +kernel : ∀ q : Fin 5, ∃ t : Fin grid0.N, win0_2.index t = ![q.val, 0])

/-- What point t writes back is block t of the product of the whole arrays. -/
theorem flushed0 (c : Dev nD) (t : Fin cfg0.N) :
    (dat0 V c).flushed 2 t = ((cfg0.win 2).blk t).view.read (Elt Ideal)
      (proj (M := 50000) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_plain]
  obtain ⟨e0, e1, e2, e3, e4⟩ := idx0 t
  funext j
  show proj (M := 10000) (iblk0 V c 0 t) (iblk0 V c 1 t) j
    = proj (M := 50000) (V c main_arg0) (V c main_arg3) (((cfg0.win 2).blk t).view.emb j)
  refine proj_rows _ _ _ _ j _ (fun k => ?_) (fun k => ?_)
  · show V c main_arg0 (((cfg0.win 0).blk t).view.emb (ix2 (n0 := 10000) (n1 := 128) (j 0) k))
      = V c main_arg0 (ix2 (n0 := 50000) (n1 := 128) ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (ix2 (n0 := 128) (n1 := 128) k (j 1)))
      = V c main_arg3 (ix2 (n0 := 128) (n1 := 128) k ((((cfg0.win 2).blk t).view.emb j) 1))
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v31).slice (win0_2.rect t)).set ↔ _
  rw [View.set_slice_whole, Rect.mem_set_unit]
  exact Iff.rfl

/-- Row r of the output is in the block of the point whose block index is r / 10000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: the product of the arrays the region found. -/
theorem final0 (c : Dev nD) :
    (dat0 V c).arrAt 2 cfg0.N = proj (M := 50000) (V c main_arg0) (V c main_arg3) :=
  (dat0 V c).arrAt_eq_of_cover 2 _ (fun t _ => flushed0 V c t) cover0

/-! ## Region 1: the row added, the clip, the product -/

/-- The printed index maps over the grid: the left operand's block moves with the output's along the rows, every
    other block index is 0. -/
theorem idx1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every one of the five row blocks is some point's. -/
theorem onto1 : ∀ q : Fin 5, ∃ t : Fin cfg1.N, win1_3.index t = ![q.val, 0] :=
  (by decide +kernel : ∀ q : Fin 5, ∃ t : Fin grid1.N, win1_3.index t = ![q.val, 0])

/-- What point t writes back is block t of the layer applied to the whole arrays. -/
theorem flushed1 (c : Dev nD) (t : Fin cfg1.N) :
    (dat1 V c).flushed 3 t = ((cfg1.win 3).blk t).view.read (Elt Ideal)
      (projAct (M := 50000) (V c main_v45) (V c main_v29) (V c main_arg5)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  rw [pay_fused1]
  obtain ⟨e0, e1, e2, e3, e4, e5, e6⟩ := idx1 t
  funext j
  show projAct (M := 10000) (iblk1 V c 0 t) (iblk1 V c 1 t) (iblk1 V c 2 t) j
    = projAct (M := 50000) (V c main_v45) (V c main_v29) (V c main_arg5) (((cfg1.win 3).blk t).view.emb j)
  refine projAct_rows _ _ _ _ _ _ j _ (fun k => ?_) (fun k => ?_) (fun k => ?_)
  · show V c main_v45 (((cfg1.win 0).blk t).view.emb (ix2 (n0 := 10000) (n1 := 128) (j 0) k))
      = V c main_v45 (ix2 (n0 := 50000) (n1 := 128) ((((cfg1.win 3).blk t).view.emb j) 0) k)
    refine congrArg (V c main_v45) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  · show V c main_v29 (((cfg1.win 1).blk t).view.emb (ix2 (n0 := 1) (n1 := 128) 0 k))
      = V c main_v29 (ix2 (n0 := 1) (n1 := 128) 0 k)
    refine congrArg (V c main_v29) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg5 (((cfg1.win 2).blk t).view.emb (ix2 (n0 := 128) (n1 := 128) k (j 1)))
      = V c main_arg5 (ix2 (n0 := 128) (n1 := 128) k ((((cfg1.win 3).blk t).view.emb j) 1))
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega

/-- An index of the output array is in point t's block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v46).slice (win1_3.rect t)).set ↔ _
  rw [View.set_slice_whole, Rect.mem_set_unit]
  exact Iff.rfl

/-- Row r of the output is in the block of the point whose block index is r / 10000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region: the layer of the arrays the region found. -/
theorem final1 (c : Dev nD) :
    (dat1 V c).arrAt 3 cfg1.N = projAct (M := 50000) (V c main_v45) (V c main_v29) (V c main_arg5) :=
  (dat1 V c).arrAt_eq_of_cover 3 _ (fun t _ => flushed1 V c t) cover1

/-! ## Region 2: the row added, the clip, the product -/

/-- The printed index maps over the grid: the left operand's block moves with the output's along the rows, every
    other block index is 0. -/
theorem idx2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0 ∧ win2_3.index t (1 : Fin 2) = 0 :=
  (by decide +kernel : ∀ t : Fin grid2.N, _)

/-- Every one of the five row blocks is some point's. -/
theorem onto2 : ∀ q : Fin 5, ∃ t : Fin cfg2.N, win2_3.index t = ![q.val, 0] :=
  (by decide +kernel : ∀ q : Fin 5, ∃ t : Fin grid2.N, win2_3.index t = ![q.val, 0])

/-- What point t writes back is block t of the layer applied to the whole arrays. -/
theorem flushed2 (c : Dev nD) (t : Fin cfg2.N) :
    (dat2 V c).flushed 3 t = ((cfg2.win 3).blk t).view.read (Elt Ideal)
      (projAct (M := 50000) (V c main_v60) (V c main_v30) (V c main_arg7)) := by
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x128) hz]
  rw [pay_fused2]
  obtain ⟨e0, e1, e2, e3, e4, e5, e6⟩ := idx2 t
  funext j
  show projAct (M := 10000) (iblk2 V c 0 t) (iblk2 V c 1 t) (iblk2 V c 2 t) j
    = projAct (M := 50000) (V c main_v60) (V c main_v30) (V c main_arg7) (((cfg2.win 3).blk t).view.emb j)
  refine projAct_rows _ _ _ _ _ _ j _ (fun k => ?_) (fun k => ?_) (fun k => ?_)
  · show V c main_v60 (((cfg2.win 0).blk t).view.emb (ix2 (n0 := 10000) (n1 := 128) (j 0) k))
      = V c main_v60 (ix2 (n0 := 50000) (n1 := 128) ((((cfg2.win 3).blk t).view.emb j) 0) k)
    refine congrArg (V c main_v60) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  · show V c main_v30 (((cfg2.win 1).blk t).view.emb (ix2 (n0 := 1) (n1 := 128) 0 k))
      = V c main_v30 (ix2 (n0 := 1) (n1 := 128) 0 k)
    refine congrArg (V c main_v30) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg7 (((cfg2.win 2).blk t).view.emb (ix2 (n0 := 128) (n1 := 128) k (j 1)))
      = V c main_arg7 (ix2 (n0 := 128) (n1 := 128) k ((((cfg2.win 3).blk t).view.emb j) 1))
    refine congrArg (V c main_arg7) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega

/-- An index of the output array is in point t's block iff each coordinate is in the block's range on its axis. -/
theorem mem_blk2 (t : Fin cfg2.N) (i : S50000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v61).slice (win2_3.rect t)).set ↔ _
  rw [View.set_slice_whole, Rect.mem_set_unit]
  exact Iff.rfl

/-- Row r of the output is in the block of the point whose block index is r / 10000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 128 ≤ (i 1).val ∧ (i 1).val < win2_3.index t (1 : Fin 2) * 128 + 128; omega

/-- The output array after the region: the layer of the arrays the region found. -/
theorem final2 (c : Dev nD) :
    (dat2 V c).arrAt 3 cfg2.N = projAct (M := 50000) (V c main_v60) (V c main_v30) (V c main_arg7) :=
  (dat2 V c).arrAt_eq_of_cover 3 _ (fun t _ => flushed2 V c t) cover2

end Cert.KernelIdeal.Blocks

end
-- ==== Proof.RefStages.lean ====
/-
  The reference, read in three shared pieces.

  The reference applies the same three steps to the node features three times and then pools:
  * `agg h s d n`: for every edge (s, d) add the row s of h, scaled by the edge's weight n, into row d of a zero
    array (negative row numbers wrap around once, as the program spells it);
  * `biasAct a b`: add the vector b to every row of a and clip at 0 from below;
  * `tail h g wl bl`: the mean of the rows of h within each of the 64 graphs g (a graph with no row divides by 1),
    times the column wl, plus bl.
  The edge weights are recomputed before every use from the same edge list, with the same operations: the three
  copies are one term. Each stage of the reference's run is then one of these pieces applied to earlier stages, by
  unfolding the stage definitions.
-/
import proofs.«155065_j35270271435518_2_alg».proof.Proof.Gen.ReferenceIdeal.Read

set_option maxRecDepth 8192

noncomputable section

namespace Cert.ReferenceIdeal.Stages

open Cert.ReferenceIdeal Cert.ReferenceIdeal.Gen Cert.ReferenceIdeal.Read Idealize.ShloMosaic Idealize.ShloMosaic.TcCoe

variable {F : FTy → Type} [FloatOps F]

/-- Scatter-add, along the edges, of the rows of `h` gathered at the source nodes and scaled by the edge weights. -/
def agg (h : (⟨S50000x128, .f32⟩ : BufTy).Contents (Elt F)) (s d : (⟨S850000, .i32⟩ : BufTy).Contents (Elt F)) (n : (⟨S850000, .f32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf
      (Host.gather gather_S50000x128_S850000x1_S850000x128_1_0_n_n_0_1_1128 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      (broadcastInDim S850000x128 ![0, 1] bcast_S850000x1_S850000x128_0_1
        (broadcastInDim S850000x1 ![0] bcast_S850000_S850000x1_0 n)))

/-- The bias added to every row, clipped at 0 from below. -/
def biasAct (a : (⟨S50000x128, .f32⟩ : BufTy).Contents (Elt F)) (b : (⟨S128, .f32⟩ : BufTy).Contents (Elt F)) : (⟨S50000x128, .f32⟩ : BufTy).Contents (Elt F) :=
  maximumf
    (addf a (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The bias added to every row. -/
def bias (a : (⟨S50000x128, .f32⟩ : BufTy).Contents (Elt F)) (b : (⟨S128, .f32⟩ : BufTy).Contents (Elt F)) : (⟨S50000x128, .f32⟩ : BufTy).Contents (Elt F) :=
  addf a (broadcastInDim S50000x128 ![0, 1] bcast_S1x128_S50000x128_0_1 (broadcastInDim S1x128 ![1] bcast_S128_S1x128_1 b))

/-- The clip at 0 from below. -/
def clip (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

theorem biasAct_eq (a : (⟨S50000x128, .f32⟩ : BufTy).Contents (Elt F)) (b : (⟨S128, .f32⟩ : BufTy).Contents (Elt F)) :
    biasAct a b = clip (bias a b) := rfl

/-- The mean over each graph's rows, then the last linear map. -/
def tail (h : (⟨S50000x128, .f32⟩ : BufTy).Contents (Elt F)) (g : (⟨S50000, .i32⟩ : BufTy).Contents (Elt F)) (wl : (⟨S128x1, .f32⟩ : BufTy).Contents (Elt F)) (bl : (⟨S1, .f32⟩ : BufTy).Contents (Elt F)) :
    (⟨S64, .f32⟩ : BufTy).Contents (Elt F) :=
  shapeCast S64
    (addf
      (Host.dotGeneral dot_S64x128_S128x1_S64x1_1_0_0_1_n_n none
        (Host.divf
          (Host.scatterAdd scatter_S64x128_S50000x1_S50000x128_1_0_0_1
            (broadcastInDim S64x128 ![] bcast_S_S64x128 (constant S_ .f32 0x00000000#32))
            (broadcastInDim S50000x1 ![0] bcast_S50000_S50000x1_0 g) h)
          (broadcastInDim S64x128 ![0, 1] bcast_S64x1_S64x128_0_1
            (broadcastInDim S64x1 ![0] bcast_S64_S64x1_0
              (maximumf
                (Host.scatterAdd scatter_S64_S50000x1_S50000_n_0_0_1
                  (broadcastInDim S64 ![] bcast_S_S64 (constant S_ .f32 0x00000000#32))
                  (broadcastInDim S50000x1 ![0] bcast_S50000_S50000x1_0 g)
                  (broadcastInDim S50000 ![] bcast_S_S50000 (constant S_ .f32 0x3F800000#32)))
                (broadcastInDim S64 ![] bcast_S_S64 (constant S_ .f32 0x3F800000#32))))))
        wl)
      (broadcastInDim S64x1 ![0, 1] bcast_S1x1_S64x1_0_1 (broadcastInDim S1x1 ![1] bcast_S1_S1x1_1 bl)))
    shapeCasts_S64x1_S64

variable (x0 : (⟨S50000x128, .f32⟩ : BufTy).Contents (Elt F)) (x1 : (⟨S2x800000, .i32⟩ : BufTy).Contents (Elt F)) (x2 : (⟨S50000, .i32⟩ : BufTy).Contents (Elt F))
  (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
  (x7 : (⟨S128x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))

/-! The edge weights, computed three times from the edge list by the same operations, are one term. -/

theorem weights2 : val_main_v69 (F := F) x1 = val_main_v29 (F := F) x1 := rfl
theorem weights3 : val_main_v109 (F := F) x1 = val_main_v29 (F := F) x1 := rfl

/-! Layer 1. -/

theorem agg1 : val_main_v42 (F := F) x0 x1 x3
    = agg (val_main_v7 (F := F) x0 x3) (val_main_v3 (F := F) x1) (val_main_v6 (F := F) x1) (val_main_v29 (F := F) x1) := rfl
theorem act1 : val_main_v46 (F := F) x0 x1 x3 x4 = biasAct (val_main_v42 (F := F) x0 x1 x3) x4 := rfl
theorem dot2 : val_main_v47 (F := F) x0 x1 x3 x4 x5 = val_main_v7 (F := F) (val_main_v46 (F := F) x0 x1 x3 x4) x5 := rfl

/-! Layer 2. -/

theorem agg2 : val_main_v82 (F := F) x0 x1 x3 x4 x5
    = agg (val_main_v47 (F := F) x0 x1 x3 x4 x5) (val_main_v3 (F := F) x1) (val_main_v6 (F := F) x1) (val_main_v29 (F := F) x1) := rfl
theorem act2 : val_main_v86 (F := F) x0 x1 x3 x4 x5 x6 = biasAct (val_main_v82 (F := F) x0 x1 x3 x4 x5) x6 := rfl
theorem dot3 : val_main_v87 (F := F) x0 x1 x3 x4 x5 x6 x7
    = val_main_v7 (F := F) (val_main_v86 (F := F) x0 x1 x3 x4 x5 x6) x7 := rfl

/-! Layer 3 and the tail. -/

theorem agg3 : val_main_v122 (F := F) x0 x1 x3 x4 x5 x6 x7
    = agg (val_main_v87 (F := F) x0 x1 x3 x4 x5 x6 x7) (val_main_v3 (F := F) x1) (val_main_v6 (F := F) x1) (val_main_v29 (F := F) x1) := rfl
theorem act3 : val_main_v126 (F := F) x0 x1 x3 x4 x5 x6 x7 x8 = biasAct (val_main_v122 (F := F) x0 x1 x3 x4 x5 x6 x7) x8 := rfl
theorem out : val_main_v143 (F := F) x0 x1 x2 x3 x4 x5 x6 x7 x8 x9 x10
    = tail (val_main_v126 (F := F) x0 x1 x3 x4 x5 x6 x7 x8) x2 x9 x10 := rfl

end Cert.ReferenceIdeal.Stages

end
-- ==== Proof.Stretches.lean ====
/-
  The idealized kernel's host operations, stretch by stretch, as functions of the buffers' contents when the stretch
  is entered.

  Between its three regions the kernel's program applies, to whatever the buffers hold, the same operations the
  reference applies (over the extended reals the widening of the gathered rows from bf16 is the identity): before the
  first region it builds the source and target node lists (the edges, then one self loop per node), the edge weights
  and the two bias rows; after each region it aggregates the region's output along the edges; after the last it adds
  the third bias, clips, pools and applies the last linear map. Each result below is the reference's own piece
  (`Stages.agg`, `Stages.bias`, `Stages.clip`, `Stages.tail`, or a stage of its run) of the entry contents; a
  buffer a stretch does not write keeps its contents.
-/
import proofs.«155065_j35270271435518_2_alg».proof.Proof.Gen.KernelIdeal.Launch
import proofs.«155065_j35270271435518_2_alg».proof.Proof.RefStages
import Idealize.ShloMosaic.Lib.StableHlo.Run

set_option maxRecDepth 16384

noncomputable section

namespace Cert.KernelIdeal.Stretches

open Cert.KernelIdeal Cert.KernelIdeal.Gen Cert.ReferenceIdeal.Read Cert.ReferenceIdeal.Stages
open Idealize.ShloMosaic Idealize.ShloMosaic.TcCoe Idealize.ShloMosaic.StableHlo

variable (V : Valuation τ sig (Elt Ideal))

/-! ## Before the first region -/

/-- The source nodes: row 0 of the edge list, then every node once. -/
theorem src : after hostOps0 V (Proc.devRef .tc main_v3) = val_main_v3 (F := Ideal) (V (Proc.devRef .tc main_arg1)) := by
  after_results_simp; rfl

/-- The target nodes: row 1 of the edge list, then every node once. -/
theorem dst : after hostOps0 V (Proc.devRef .tc main_v6) = val_main_v6 (F := Ideal) (V (Proc.devRef .tc main_arg1)) := by
  after_results_simp; rfl

/-- The edge weights. -/
theorem weights : after hostOps0 V (Proc.devRef .tc main_v28) = val_main_v29 (F := Ideal) (V (Proc.devRef .tc main_arg1)) := by
  after_results_simp; rfl

/-- The first bias as a 1 × 128 row. -/
theorem row1 : after hostOps0 V (Proc.devRef .tc main_v29)
    = shapeCast S1x128 (V (Proc.devRef .tc main_arg4)) shapeCasts_S128_S1x128 := by
  after_results_simp; rfl

/-- The second bias as a 1 × 128 row. -/
theorem row2 : after hostOps0 V (Proc.devRef .tc main_v30)
    = shapeCast S1x128 (V (Proc.devRef .tc main_arg6)) shapeCasts_S128_S1x128 := by
  after_results_simp; rfl

/-- The first stretch writes no argument. -/
theorem keep0 (r : Ref sig .tc) (h : r ∈ ([main_arg0, main_arg2, main_arg3, main_arg5, main_arg7, main_arg8, main_arg9, main_arg10] : List (Ref sig .tc))) :
    after hostOps0 V (Proc.devRef .tc r) = V (Proc.devRef .tc r) := by
  simp only [List.mem_cons, List.not_mem_nil, or_false] at h
  rcases h with rfl | rfl | rfl | rfl | rfl | rfl | rfl | rfl <;> after_results_simp

/-! ## After the first region -/

/-- The aggregation of the first region's output along the edges. -/
theorem agg1 : after hostOps1 V (Proc.devRef .tc main_v45)
    = agg (F := Ideal) (V (Proc.devRef .tc main_v31)) (V (Proc.devRef .tc main_v3)) (V (Proc.devRef .tc main_v6)) (V (Proc.devRef .tc main_v28)) := by
  after_results_simp; rfl

theorem keep1 (r : Ref sig .tc) (h : r ∈ ([main_v3, main_v6, main_v28, main_v29, main_v30, main_arg2, main_arg5, main_arg7, main_arg8, main_arg9, main_arg10] : List (Ref sig .tc))) :
    after hostOps1 V (Proc.devRef .tc r) = V (Proc.devRef .tc r) := by
  simp only [List.mem_cons, List.not_mem_nil, or_false] at h
  rcases h with rfl | rfl | rfl | rfl | rfl | rfl | rfl | rfl | rfl | rfl | rfl <;> after_results_simp

/-! ## After the second region -/

theorem agg2 : after hostOps2 V (Proc.devRef .tc main_v60)
    = agg (F := Ideal) (V (Proc.devRef .tc main_v46)) (V (Proc.devRef .tc main_v3)) (V (Proc.devRef .tc main_v6)) (V (Proc.devRef .tc main_v28)) := by
  after_results_simp; rfl

theorem keep2 (r : Ref sig .tc) (h : r ∈ ([main_v3, main_v6, main_v28, main_v30, main_arg2, main_arg7, main_arg8, main_arg9, main_arg10] : List (Ref sig .tc))) :
    after hostOps2 V (Proc.devRef .tc r) = V (Proc.devRef .tc r) := by
  simp only [List.mem_cons, List.not_mem_nil, or_false] at h
  rcases h with rfl | rfl | rfl | rfl | rfl | rfl | rfl | rfl | rfl <;> after_results_simp

/-! ## After the third region -/

/-- The aggregation of the third region's output, and the third bias added. -/
theorem agg3 : after hostOps3 V (Proc.devRef .tc main_v78)
    = bias (F := Ideal)
        (agg (F := Ideal) (V (Proc.devRef .tc main_v61)) (V (Proc.devRef .tc main_v3)) (V (Proc.devRef .tc main_v6)) (V (Proc.devRef .tc main_v28)))
        (V (Proc.devRef .tc main_arg8)) := by
  after_results_simp; rfl

theorem keep3 (r : Ref sig .tc) (h : r ∈ ([main_arg2, main_arg9, main_arg10] : List (Ref sig .tc))) :
    after hostOps3 V (Proc.devRef .tc r) = V (Proc.devRef .tc r) := by
  simp only [List.mem_cons, List.not_mem_nil, or_false] at h
  rcases h with rfl | rfl | rfl <;> after_results_simp

/-- The clip (the program's outlined function). -/
theorem act3 : after hostOps3_1 V (Proc.devRef .tc main_v79) = clip (F := Ideal) (V (Proc.devRef .tc main_v78)) := by
  after_results_simp; rfl

theorem keep3_1 (r : Ref sig .tc) (h : r ∈ ([main_arg2, main_arg9, main_arg10] : List (Ref sig .tc))) :
    after hostOps3_1 V (Proc.devRef .tc r) = V (Proc.devRef .tc r) := by
  simp only [List.mem_cons, List.not_mem_nil, or_false] at h
  rcases h with rfl | rfl | rfl <;> after_results_simp

/-- The pooling and the last linear map. -/
theorem out : after hostOps3_2 V (Proc.devRef .tc main_v96)
    = tail (F := Ideal) (V (Proc.devRef .tc main_v79)) (V (Proc.devRef .tc main_arg2)) (V (Proc.devRef .tc main_arg9)) (V (Proc.devRef .tc main_arg10)) := by
  after_results_simp; rfl

end Cert.KernelIdeal.Stretches

end
-- ==== Proof.Bridge.lean ====
/-
  The one law that joins the two sides: the layer a kernel region computes is the reference's matrix product.

  * `Layer.proj x w` is the reference's `dot_general` of x and w: both are, at (p, e), the sum over k of
    x (p, k) · w (k, e).
  * `Layer.projAct a b' w` with b' the bias reshaped to a 1 × 128 row is the reference's `dot_general` of
    `Stages.biasAct a b` and w: the reference adds the bias broadcast over the rows and clips at 0 on the host before
    its product, the kernel does it inside the region on each loaded block; entry (p, k) of both left factors is
    max (a (p, k) + b k) 0.
  No finiteness is used: only the definitions of the sums.
-/
import proofs.«155065_j35270271435518_2_alg».proof.Proof.Layer
import proofs.«155065_j35270271435518_2_alg».proof.Proof.RefStages
import Idealize.ShloMosaic.Lib.Pipeline.Value

noncomputable section

namespace Cert.Bridge

open Cert.Layer Cert.ReferenceIdeal.Read Cert.ReferenceIdeal.Stages
open Idealize.ShloMosaic Idealize.ShloMosaic.ValueIdx

/-- The reference's operand indices of its product are (row, k) and (k, column). -/
theorem lidx_eq (i : (⟨2, ![50000, 128]⟩ : Shape).Idx) (k : Fin 128) :
    lidx_main_v7 i k = ix2 (n0 := 50000) (n1 := 128) (i 0) k :=
  funext fun a => Fin.ext (by match a with | ⟨0, _⟩ => rfl | ⟨1, _⟩ => rfl)

theorem ridx_eq (i : (⟨2, ![50000, 128]⟩ : Shape).Idx) (k : Fin 128) :
    ridx_main_v7 i k = ix2 (n0 := 128) (n1 := 128) k (i 1) :=
  funext fun a => Fin.ext (by match a with | ⟨0, _⟩ => rfl | ⟨1, _⟩ => rfl)

/-- The plain layer is the reference's product. -/
theorem proj_eq (x : Mat 50000 128) (w : Mat 128 128) :
    proj (M := 50000) x w = val_main_v7 (F := Ideal) x w := by
  funext i
  rw [val_main_v7_apply]
  unfold proj
  refine Finset.sum_congr rfl fun k _ => ?_
  rw [lidx_eq, ridx_eq]

/-- The bias reshaped to a row, read at (0, k), and the bias broadcast over the rows, read at (p, k), are both b k. -/
theorem row_eq (b : (⟨1, ![128]⟩ : Shape).Idx → EReal) (h : (⟨1, ![128]⟩ : Shape).ShapeCasts ⟨2, ![1, 128]⟩)
    (p : Fin 50000) (k : Fin 128) :
    shapeCast ⟨2, ![1, 128]⟩ b h (ix2 (n0 := 1) (n1 := 128) 0 k)
      = val_main_v44 (F := Ideal) b (ix2 (n0 := 50000) (n1 := 128) p k) := by
  rw [val_main_v44_apply, val_main_v43_apply, shapeCast_addUnit_apply]
  refine congrArg b (funext fun a => Fin.ext ?_)
  match a with
  | ⟨0, _⟩ => rfl

/-- The layer with the added row and the clip is the reference's product of the biased, clipped array. -/
theorem projAct_eq (a : Mat 50000 128) (b : (⟨1, ![128]⟩ : Shape).Idx → EReal) (w : Mat 128 128)
    (h : (⟨1, ![128]⟩ : Shape).ShapeCasts ⟨2, ![1, 128]⟩) :
    projAct (M := 50000) a (shapeCast ⟨2, ![1, 128]⟩ b h) w
      = val_main_v7 (F := Ideal) (biasAct (F := Ideal) a b) w := by
  funext i
  rw [val_main_v7_apply]
  unfold projAct
  refine Finset.sum_congr rfl fun k _ => ?_
  rw [lidx_eq, ridx_eq]
  refine congrArg (· * w (ix2 (n0 := 128) (n1 := 128) k (i 1))) ?_
  show max (a (ix2 (n0 := 50000) (n1 := 128) (i 0) k) + shapeCast ⟨2, ![1, 128]⟩ b h (ix2 (n0 := 1) (n1 := 128) 0 k)) 0
    = max (a (ix2 (n0 := 50000) (n1 := 128) (i 0) k) + val_main_v44 (F := Ideal) b (ix2 (n0 := 50000) (n1 := 128) (i 0) k))
        (Ideal.ofBits .f32 0x00000000#32)
  rw [row_eq b h (i 0) k, Ideal.ofBits_zero_f32]

end Cert.Bridge

end
-- ==== Proof.KernelValue.lean ====
/-
  The idealized kernel's result as a function of its arguments: the reference's last stage.

  The buffers' contents at the nine boundaries of the kernel's program are followed from the launch memory to the
  return. Before the first region the host builds the node lists, the edge weights and the bias rows (the reference's
  stages of the same names). Region 0 leaves the plain layer of the features, which is the reference's first product;
  the stretch after it aggregates along the edges (the reference's first aggregation); region 1 leaves the layer with
  the first bias and the clip, which is the reference's second product of its biased, clipped aggregation; and so on
  through region 2. The last stretches add the third bias, clip, pool and apply the last linear map. Buffers computed
  once (node lists, weights, bias rows) and the arguments are carried unchanged across the stretches and regions that
  do not write them.
-/
import proofs.«155065_j35270271435518_2_alg».proof.Proof.Gen.KernelIdeal.Frame
import proofs.«155065_j35270271435518_2_alg».proof.Proof.Blocks
import proofs.«155065_j35270271435518_2_alg».proof.Proof.Stretches
import proofs.«155065_j35270271435518_2_alg».proof.Proof.Bridge

set_option maxRecDepth 16384

noncomputable section

namespace Cert.KernelIdeal.Net

open Cert.KernelIdeal Cert.KernelIdeal.Gen Cert.KernelIdeal.Blocks Cert.KernelIdeal.Stretches
open Cert.ReferenceIdeal.Read Cert.ReferenceIdeal.Stages Cert.Layer Cert.Bridge
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The arguments, as launched -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

/-! ## Boundary 1: after the first host stretch -/

theorem b1_src : W1 m ρ c (Proc.devRef .tc main_v3) = val_main_v3 (F := Ideal) (a1 m c) := src (W0 m ρ c)
theorem b1_dst : W1 m ρ c (Proc.devRef .tc main_v6) = val_main_v6 (F := Ideal) (a1 m c) := dst (W0 m ρ c)
theorem b1_wts : W1 m ρ c (Proc.devRef .tc main_v28) = val_main_v29 (F := Ideal) (a1 m c) := weights (W0 m ρ c)
theorem b1_row1 : W1 m ρ c (Proc.devRef .tc main_v29) = shapeCast S1x128 (a4 m c) shapeCasts_S128_S1x128 := row1 (W0 m ρ c)
theorem b1_row2 : W1 m ρ c (Proc.devRef .tc main_v30) = shapeCast S1x128 (a6 m c) shapeCasts_S128_S1x128 := row2 (W0 m ρ c)
theorem b1_arg (r : Ref sig .tc) (h : r ∈ ([main_arg0, main_arg2, main_arg3, main_arg5, main_arg7, main_arg8, main_arg9, main_arg10] : List (Ref sig .tc))) :
    W1 m ρ c (Proc.devRef .tc r) = m ((c : Thread nD τ).loc r) := keep0 (W0 m ρ c) r h

/-! ## Boundary 2: after region 0 -/

/-- Region 0's output array: the reference's first product. -/
theorem b2_out : W2 m ρ c (Proc.devRef .tc main_v31) = val_main_v7 (F := Ideal) (a0 m c) (a3 m c) := by
  refine (W2_arr m ρ c 2).trans ((final0 (V1 m ρ) c).trans ?_)
  show proj (M := 50000) (W1 m ρ c (Proc.devRef .tc main_arg0)) (W1 m ρ c (Proc.devRef .tc main_arg3)) = _
  rw [b1_arg m ρ c main_arg0 (by decide), b1_arg m ρ c main_arg3 (by decide)]
  exact proj_eq _ _

/-- What region 0 does not write is carried. -/
theorem b2_keep (r : Ref sig .tc) (h : ∀ w, Pipeline.arrRef spec0 w ≠ r) :
    W2 m ρ c (Proc.devRef .tc r) = W1 m ρ c (Proc.devRef .tc r) := W2_of_ne m ρ c r h

/-! ## Boundary 3: after the first aggregation -/

theorem b3_keep (r : Ref sig .tc) (h : r ∈ ([main_v3, main_v6, main_v28, main_v29, main_v30, main_arg2, main_arg5, main_arg7, main_arg8, main_arg9, main_arg10] : List (Ref sig .tc)))
    (h2 : ∀ w, Pipeline.arrRef spec0 w ≠ r) :
    W3 m ρ c (Proc.devRef .tc r) = W1 m ρ c (Proc.devRef .tc r) :=
  (keep1 (W2 m ρ c) r h).trans (b2_keep m ρ c r h2)

theorem b3_out : W3 m ρ c (Proc.devRef .tc main_v45) = val_main_v42 (F := Ideal) (a0 m c) (a1 m c) (a3 m c) := by
  refine (Stretches.agg1 (W2 m ρ c)).trans ?_
  rw [b2_out, b2_keep m ρ c main_v3 (by decide), b2_keep m ρ c main_v6 (by decide), b2_keep m ρ c main_v28 (by decide),
    b1_src, b1_dst, b1_wts]
  exact (Cert.ReferenceIdeal.Stages.agg1 _ _ _).symm

/-! ## Boundary 4: after region 1 -/

theorem b4_out : W4 m ρ c (Proc.devRef .tc main_v46)
    = val_main_v47 (F := Ideal) (a0 m c) (a1 m c) (a3 m c) (a4 m c) (a5 m c) := by
  refine (W4_arr m ρ c 3).trans ((final1 (V3 m ρ) c).trans ?_)
  show projAct (M := 50000) (W3 m ρ c (Proc.devRef .tc main_v45)) (W3 m ρ c (Proc.devRef .tc main_v29))
    (W3 m ρ c (Proc.devRef .tc main_arg5)) = _
  rw [b3_out, b3_keep m ρ c main_v29 (by decide) (by decide), b3_keep m ρ c main_arg5 (by decide) (by decide),
    b1_row1, b1_arg m ρ c main_arg5 (by decide)]
  refine (projAct_eq _ _ _ _).trans ?_
  rw [← Cert.ReferenceIdeal.Stages.act1, ← Cert.ReferenceIdeal.Stages.dot2]

theorem b4_keep (r : Ref sig .tc) (h : ∀ w, Pipeline.arrRef spec1 w ≠ r) :
    W4 m ρ c (Proc.devRef .tc r) = W3 m ρ c (Proc.devRef .tc r) := W4_of_ne m ρ c r h

/-! ## Boundary 5: after the second aggregation -/

theorem b5_keep (r : Ref sig .tc) (h : r ∈ ([main_v3, main_v6, main_v28, main_v30, main_arg2, main_arg7, main_arg8, main_arg9, main_arg10] : List (Ref sig .tc)))
    (h' : r ∈ ([main_v3, main_v6, main_v28, main_v29, main_v30, main_arg2, main_arg5, main_arg7, main_arg8, main_arg9, main_arg10] : List (Ref sig .tc)))
    (h4 : ∀ w, Pipeline.arrRef spec1 w ≠ r) (h2 : ∀ w, Pipeline.arrRef spec0 w ≠ r) :
    W5 m ρ c (Proc.devRef .tc r) = W1 m ρ c (Proc.devRef .tc r) :=
  (keep2 (W4 m ρ c) r h).trans ((b4_keep m ρ c r h4).trans (b3_keep m ρ c r h' h2))

theorem b5_out : W5 m ρ c (Proc.devRef .tc main_v60)
    = val_main_v82 (F := Ideal) (a0 m c) (a1 m c) (a3 m c) (a4 m c) (a5 m c) := by
  refine (Stretches.agg2 (W4 m ρ c)).trans ?_
  rw [b4_out, b4_keep m ρ c main_v3 (by decide), b4_keep m ρ c main_v6 (by decide), b4_keep m ρ c main_v28 (by decide),
    b3_keep m ρ c main_v3 (by decide) (by decide), b3_keep m ρ c main_v6 (by decide) (by decide),
    b3_keep m ρ c main_v28 (by decide) (by decide), b1_src, b1_dst, b1_wts]
  exact (Cert.ReferenceIdeal.Stages.agg2 _ _ _ _ _).symm

/-! ## Boundary 6: after region 2 -/

theorem b6_out : W6 m ρ c (Proc.devRef .tc main_v61)
    = val_main_v87 (F := Ideal) (a0 m c) (a1 m c) (a3 m c) (a4 m c) (a5 m c) (a6 m c) (a7 m c) := by
  refine (W6_arr m ρ c 3).trans ((final2 (V5 m ρ) c).trans ?_)
  show projAct (M := 50000) (W5 m ρ c (Proc.devRef .tc main_v60)) (W5 m ρ c (Proc.devRef .tc main_v30))
    (W5 m ρ c (Proc.devRef .tc main_arg7)) = _
  rw [b5_out, b5_keep m ρ c main_v30 (by decide) (by decide) (by decide) (by decide),
    b5_keep m ρ c main_arg7 (by decide) (by decide) (by decide) (by decide), b1_row2, b1_arg m ρ c main_arg7 (by decide)]
  refine (projAct_eq _ _ _ _).trans ?_
  rw [← Cert.ReferenceIdeal.Stages.act2, ← Cert.ReferenceIdeal.Stages.dot3]

theorem b6_keep (r : Ref sig .tc) (h : ∀ w, Pipeline.arrRef spec2 w ≠ r)
    (h5 : r ∈ ([main_v3, main_v6, main_v28, main_v30, main_arg2, main_arg7, main_arg8, main_arg9, main_arg10] : List (Ref sig .tc)))
    (h' : r ∈ ([main_v3, main_v6, main_v28, main_v29, main_v30, main_arg2, main_arg5, main_arg7, main_arg8, main_arg9, main_arg10] : List (Ref sig .tc)))
    (h4 : ∀ w, Pipeline.arrRef spec1 w ≠ r) (h2 : ∀ w, Pipeline.arrRef spec0 w ≠ r) :
    W6 m ρ c (Proc.devRef .tc r) = W1 m ρ c (Proc.devRef .tc r) :=
  (W6_of_ne m ρ c r h).trans (b5_keep m ρ c r h5 h' h4 h2)

/-! ## Boundaries 7, 8, 9: the third aggregation and bias, the clip, the pooling and the last linear map -/

theorem b7_out : W7 m ρ c (Proc.devRef .tc main_v78)
    = bias (F := Ideal) (val_main_v122 (F := Ideal) (a0 m c) (a1 m c) (a3 m c) (a4 m c) (a5 m c) (a6 m c) (a7 m c)) (a8 m c) := by
  refine (Stretches.agg3 (W6 m ρ c)).trans ?_
  rw [b6_out, b6_keep m ρ c main_v3 (by decide) (by decide) (by decide) (by decide) (by decide),
    b6_keep m ρ c main_v6 (by decide) (by decide) (by decide) (by decide) (by decide),
    b6_keep m ρ c main_v28 (by decide) (by decide) (by decide) (by decide) (by decide),
    b6_keep m ρ c main_arg8 (by decide) (by decide) (by decide) (by decide) (by decide),
    b1_src, b1_dst, b1_wts, b1_arg m ρ c main_arg8 (by decide), ← Cert.ReferenceIdeal.Stages.agg3]

theorem b7_keep (r : Ref sig .tc) (h : r ∈ ([main_arg2, main_arg9, main_arg10] : List (Ref sig .tc)))
    (h6 : ∀ w, Pipeline.arrRef spec2 w ≠ r)
    (h5 : r ∈ ([main_v3, main_v6, main_v28, main_v30, main_arg2, main_arg7, main_arg8, main_arg9, main_arg10] : List (Ref sig .tc)))
    (h' : r ∈ ([main_v3, main_v6, main_v28, main_v29, main_v30, main_arg2, main_arg5, main_arg7, main_arg8, main_arg9, main_arg10] : List (Ref sig .tc)))
    (h4 : ∀ w, Pipeline.arrRef spec1 w ≠ r) (h2 : ∀ w, Pipeline.arrRef spec0 w ≠ r)
    (h0 : r ∈ ([main_arg0, main_arg2, main_arg3, main_arg5, main_arg7, main_arg8, main_arg9, main_arg10] : List (Ref sig .tc))) :
    W8 m ρ c (Proc.devRef .tc r) = m ((c : Thread nD τ).loc r) :=
  (keep3_1 (W7 m ρ c) r h).trans ((keep3 (W6 m ρ c) r h).trans ((b6_keep m ρ c r h6 h5 h' h4 h2).trans (b1_arg m ρ c r h0)))

theorem b8_out : W8 m ρ c (Proc.devRef .tc main_v79)
    = val_main_v126 (F := Ideal) (a0 m c) (a1 m c) (a3 m c) (a4 m c) (a5 m c) (a6 m c) (a7 m c) (a8 m c) := by
  refine (Stretches.act3 (W7 m ρ c)).trans ?_
  rw [b7_out, ← biasAct_eq, ← Cert.ReferenceIdeal.Stages.act3]

/-- The result array at the last boundary is the reference's last stage of the arguments. -/
theorem result : W9 m ρ c (Proc.devRef .tc main_v96)
    = val_main_v143 (F := Ideal) (a0 m c) (a1 m c) (a2 m c) (a3 m c) (a4 m c) (a5 m c) (a6 m c) (a7 m c) (a8 m c) (a9 m c) (a10 m c) := by
  refine (Stretches.out (W8 m ρ c)).trans ?_
  rw [b8_out,
    b7_keep m ρ c main_arg2 (by decide) (by decide) (by decide) (by decide) (by decide) (by decide) (by decide),
    b7_keep m ρ c main_arg9 (by decide) (by decide) (by decide) (by decide) (by decide) (by decide) (by decide),
    b7_keep m ρ c main_arg10 (by decide) (by decide) (by decide) (by decide) (by decide) (by decide) (by decide),
    ← Cert.ReferenceIdeal.Stages.out]

end Cert.KernelIdeal.Net

end
-- ==== Proof.lean ====
/-
  A three-layer graph convolution network with mean pooling: the Pallas kernel against its jnp reference, over the
  extended reals.

  Both programs compute, for node features x, an edge list, graph ids and weights W1, b1, W2, b2, W3, b3, Wl, bl:
    h1 = relu (A (x · W1) + b1),  h2 = relu (A (h1 · W2) + b2),  h3 = relu (A (h2 · W3) + b3),
    out = mean of h3 over each graph's nodes · Wl + bl,
  where A scatter-adds, along the edges and one self loop per node, the source node's row scaled by the edge's
  normalisation weight (computed from the target degrees). The reference does every step on the host. The kernel does
  the three products in Pallas regions, five blocks of 10000 rows each, in bf16 with an f32 accumulator, and fuses
  "+ b, relu" of layers 1 and 2 into the next region's body; everything else it does on the host with the operations
  the reference uses, computing the edge weights once instead of three times.

  Over the extended reals a change of float format is the identity and a product into the zero block is the plain sum
  over the contracted coordinate, so a region's output block is the same rows of the reference's product
  (Bodies, Blocks, Bridge); the host stretches between the regions are the reference's own stages applied to what the
  buffers hold (Stretches, RefStages); following the buffers from the launch to the return (KernelValue) gives the
  kernel's result as the reference's last stage of the arguments. Only the definitions of the finite sums are used:
  no law that would need the inputs to be finite.

  The three frames: the two kernel programs by their generated frame proofs, the reference by its generated run with
  the result dropped. The idealization rewrote nothing, so there is nothing to preserve.
-/
import proofs.«155065_j35270271435518_2_alg».proof.Defs
import proofs.«155065_j35270271435518_2_alg».proof.Proof.Gen.Kernel
import proofs.«155065_j35270271435518_2_alg».proof.Proof.Gen.Kernel.Skeleton
import proofs.«155065_j35270271435518_2_alg».proof.Proof.Gen.Kernel.Launch
import proofs.«155065_j35270271435518_2_alg».proof.Proof.Gen.Kernel.Points
import proofs.«155065_j35270271435518_2_alg».proof.Proof.Gen.Kernel.Frame
import proofs.«155065_j35270271435518_2_alg».proof.Proof.Gen.KernelIdeal
import proofs.«155065_j35270271435518_2_alg».proof.Proof.Gen.KernelIdeal.Skeleton
import proofs.«155065_j35270271435518_2_alg».proof.Proof.Gen.KernelIdeal.Launch
import proofs.«155065_j35270271435518_2_alg».proof.Proof.Gen.KernelIdeal.Points
import proofs.«155065_j35270271435518_2_alg».proof.Proof.Gen.KernelIdeal.Frame
import proofs.«155065_j35270271435518_2_alg».proof.Proof.Gen.ReferenceIdeal
import proofs.«155065_j35270271435518_2_alg».proof.Proof.Gen.Pre_finite_inputs
import proofs.«155065_j35270271435518_2_alg».proof.Proof.Gen.ReferenceIdeal.Read
import proofs.«155065_j35270271435518_2_alg».proof.Proof.KernelRun
import proofs.«155065_j35270271435518_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of the arguments in
    their result arrays. -/
theorem algebraic : Cert.algebraic_KernelIdeal_ReferenceIdeal := by
  intro m ρ m' ρ' _ hagree
  refine ⟨fun c => Cert.ReferenceIdeal.Read.val_main_v143 (F := Ideal)
      (Cert.KernelIdeal.Net.a0 m c) (Cert.KernelIdeal.Net.a1 m c) (Cert.KernelIdeal.Net.a2 m c) (Cert.KernelIdeal.Net.a3 m c)
      (Cert.KernelIdeal.Net.a4 m c) (Cert.KernelIdeal.Net.a5 m c) (Cert.KernelIdeal.Net.a6 m c) (Cert.KernelIdeal.Net.a7 m c)
      (Cert.KernelIdeal.Net.a8 m c) (Cert.KernelIdeal.Net.a9 m c) (Cert.KernelIdeal.Net.a10 m c), ?_, ?_⟩
  · exact (θ_run Cert.KernelIdeal.defs _ _).mono
      (fun r h c => ⟨(h c).1.trans (Cert.KernelIdeal.Net.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v143_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
